-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 150
  | .vmem => 25
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1600000, .f32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S1700000x1, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S100000x128, .f32⟩
  | 71 => ⟨S1700000x1, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x128, .f32⟩
  | 81 => ⟨S1700000x128, .f32⟩
  | 82 => ⟨S1700000x128, .f32⟩
  | 83 => ⟨S_, .f32⟩
  | 84 => ⟨S100000x128, .f32⟩
  | 85 => ⟨S1700000x1, .i32⟩
  | 86 => ⟨S100000x128, .f32⟩
  | 87 => ⟨S1x128, .f32⟩
  | 88 => ⟨S100000x128, .f32⟩
  | 89 => ⟨S100000x128, .f32⟩
  | 90 => ⟨S100000x128, .f32⟩
  | 91 => ⟨S1700000x1, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x128, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x128, .f32⟩
  | 110 => ⟨S100000x128, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x128, .f32⟩
  | 122 => ⟨S1700000x128, .f32⟩
  | 123 => ⟨S_, .f32⟩
  | 124 => ⟨S100000x128, .f32⟩
  | 125 => ⟨S1700000x1, .i32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S1700000x1, .f32⟩
  | 4 => ⟨S_, .i32⟩
  | 5 => ⟨S1700000, .i32⟩
  | 6 => ⟨S1700000, .i1⟩
  | 7 => ⟨S_, .i32⟩
  | 8 => ⟨S1700000, .i32⟩
  | 9 => ⟨S1700000, .i32⟩
  | 10 => ⟨S1700000, .i32⟩
  | 11 => ⟨S1700000x1, .i32⟩
  | 12 => ⟨S1700000x128, .f32⟩
  | 13 => ⟨S1700000x128, .f32⟩
  | 14 => ⟨S1700000x128, .f32⟩
  | 15 => ⟨S_, .f32⟩
  | 16 => ⟨S100000x128, .f32⟩
  | 17 => ⟨S1700000x1, .i32⟩
  | 18 => ⟨S100000x128, .f32⟩
  | 19 => ⟨S1x128, .f32⟩
  | 20 => ⟨S100000x128, .f32⟩
  | 21 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_16 : Ref sig .tc := ⟨.hbm, 112, rfl⟩
abbrev main_v86 : Ref sig .tc := ⟨.hbm, 113, rfl⟩
abbrev main_v87 : Ref sig .tc := ⟨.hbm, 114, rfl⟩
abbrev main_c_17 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_18 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_c_19 : Ref sig .tc := ⟨.hbm, 132, rfl⟩
abbrev main_v103 : Ref sig .tc := ⟨.hbm, 133, rfl⟩
abbrev main_v104 : Ref sig .tc := ⟨.hbm, 134, rfl⟩
abbrev main_c_20 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_21 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v100) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v101) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1600000, .f32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S1700000x1, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S100000x128, .f32⟩
  | 71 => ⟨S1700000x1, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x128, .f32⟩
  | 81 => ⟨S1700000x128, .f32⟩
  | 82 => ⟨S1700000x128, .f32⟩
  | 83 => ⟨S_, .f32⟩
  | 84 => ⟨S100000x128, .f32⟩
  | 85 => ⟨S1700000x1, .i32⟩
  | 86 => ⟨S100000x128, .f32⟩
  | 87 => ⟨S1x128, .f32⟩
  | 88 => ⟨S100000x128, .f32⟩
  | 89 => ⟨S100000x128, .f32⟩
  | 90 => ⟨S100000x128, .f32⟩
  | 91 => ⟨S1700000x1, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x128, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x128, .f32⟩
  | 110 => ⟨S100000x128, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x128, .f32⟩
  | 122 => ⟨S1700000x128, .f32⟩
  | 123 => ⟨S_, .f32⟩
  | 124 => ⟨S100000x128, .f32⟩
  | 125 => ⟨S1700000x1, .i32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S1700000x1, .f32⟩
  | 4 => ⟨S_, .i32⟩
  | 5 => ⟨S1700000, .i32⟩
  | 6 => ⟨S1700000, .i1⟩
  | 7 => ⟨S_, .i32⟩
  | 8 => ⟨S1700000, .i32⟩
  | 9 => ⟨S1700000, .i32⟩
  | 10 => ⟨S1700000, .i32⟩
  | 11 => ⟨S1700000x1, .i32⟩
  | 12 => ⟨S1700000x128, .f32⟩
  | 13 => ⟨S1700000x128, .f32⟩
  | 14 => ⟨S1700000x128, .f32⟩
  | 15 => ⟨S_, .f32⟩
  | 16 => ⟨S100000x128, .f32⟩
  | 17 => ⟨S1700000x1, .i32⟩
  | 18 => ⟨S100000x128, .f32⟩
  | 19 => ⟨S1x128, .f32⟩
  | 20 => ⟨S100000x128, .f32⟩
  | 21 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_16 : Ref sig .tc := ⟨.hbm, 112, rfl⟩
abbrev main_v86 : Ref sig .tc := ⟨.hbm, 113, rfl⟩
abbrev main_v87 : Ref sig .tc := ⟨.hbm, 114, rfl⟩
abbrev main_c_17 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_18 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_c_19 : Ref sig .tc := ⟨.hbm, 132, rfl⟩
abbrev main_v103 : Ref sig .tc := ⟨.hbm, 133, rfl⟩
abbrev main_v104 : Ref sig .tc := ⟨.hbm, 134, rfl⟩
abbrev main_c_20 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_21 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelNamed.lean ====
/-
  The kernel's run with its result named.

  @main of the kernel is thirteen segments: stretches of host operations and the five launches of the dense product.
  Every weakly fair execution terminates without a fault, and in the final state every unscoped buffer of a core holds
  the last boundary's contents `W13` — the fold of the segments from the launch memory: a stretch's operations applied in
  order, a launch's arrays at what its write-backs leave. Read at the argument buffers this is the frame; read at the
  result buffer `main_v117` as well, it names the result: `W13 m ρ c main_v117`.
-/
import proofs.«173828_j90881507983767_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the six argument arrays end as launched. -/
theorem run_named : θ_run defs (onTc (τ := τ) (main (F := F))) ⟨m, fun _ => 0, ρ⟩ (fun r => ∀ c : Dev nD,
      r.2.mem ((c.tc : Thread nD τ).loc main_v117) = W13 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v117 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.Hand

end
-- ==== Proof.Spec.lean ====
/-
  The function both programs compute, written once over whole arrays.

  A graph of 100000 nodes is given by 1600000 directed edges (a row of sources and a row of targets); every node also
  gets a loop edge, so there are 1700000 edges in all. An edge carries the weight 1 (a given edge) or 2 (a loop). The
  degree of a node is the sum of the weights of the edges that end there, `dinv` is its inverse square root (0 where
  the degree is not positive), and the coefficient of an edge is `dinv (source) * weight * dinv (target)`.
  One layer multiplies the node features by a weight matrix (`mm`), gathers the product's row at every edge's source,
  scales it by the edge's coefficient, adds the scaled rows up at the edge's target, and adds a bias row (`layer`).
  The network is five layers: the first with (W1, b1), the other four with (W2, b2).

  Every piece is spelt exactly as the host operations of the two programs spell it, so that a program's buffer after a
  stretch of host operations is one of these functions of the buffers the stretch read, by unfolding.
-/
import proofs.«173828_j90881507983767_1_alg».proof.Proof.Gen.ReferenceIdeal

noncomputable section

namespace Cert.Spec

open Idealize.ShloMosaic Cert.ReferenceIdeal Cert.ReferenceIdeal.Facts₀

variable {F : FTy → Type} [FloatOps F]

abbrev TEdges (F : FTy → Type) [FloatOps F] := (⟨S2x1600000, .i32⟩ : BufTy).Contents (Elt F)
abbrev TIdx (F : FTy → Type) [FloatOps F] := (⟨S1700000, .i32⟩ : BufTy).Contents (Elt F)
abbrev TCoef (F : FTy → Type) [FloatOps F] := (⟨S1700000, .f32⟩ : BufTy).Contents (Elt F)
abbrev TNode (F : FTy → Type) [FloatOps F] := (⟨S100000, .f32⟩ : BufTy).Contents (Elt F)
abbrev TFeat (F : FTy → Type) [FloatOps F] := (⟨S100000x128, .f32⟩ : BufTy).Contents (Elt F)
abbrev TMat (F : FTy → Type) [FloatOps F] := (⟨S128x128, .f32⟩ : BufTy).Contents (Elt F)
abbrev TBias (F : FTy → Type) [FloatOps F] := (⟨S128, .f32⟩ : BufTy).Contents (Elt F)

/-- The sources of the 1700000 edges: row 0 of the edge table, then the loop edges 0 … 99999. -/
def src (ei : TEdges F) : TIdx F :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets of the 1700000 edges: row 1 of the edge table, then the loop edges. -/
def dst (ei : TEdges F) : TIdx F :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The edge weights: 1 on a given edge, 2 on a loop. -/
def wts : TCoef F :=
  concatenate S1700000 0 [⟨S1600000, (broadcastInDim S1600000 ![] bcast_S_S1600000 (constant S_ .f32 0x3F800000#32))⟩, ⟨S100000, (broadcastInDim S100000 ![] bcast_S_S100000 (constant S_ .f32 0x40000000#32))⟩] concatenates_S1600000_S100000_S1700000_d0

/-- A node's degree: the weights of the edges ending there, summed. -/
def deg (d : TIdx F) (w : TCoef F) : TNode F :=
  Host.scatterAdd scatter_S100000_S1700000x1_S1700000_n_0_0_1 (broadcastInDim S100000 ![] bcast_S_S100000 (constant S_ .f32 0x00000000#32)) (broadcastInDim S1700000x1 ![0] bcast_S1700000_S1700000x1_0 d) w

/-- The inverse square root of the degree where it is positive, 0 elsewhere. -/
def dinv (g : TNode F) : TNode F :=
  select (cmpf .ogt g (broadcastInDim S100000 ![] bcast_S_S100000 (constant S_ .f32 0x00000000#32))) (Host.rsqrt g) (broadcastInDim S100000 ![] bcast_S_S100000 (id (constant S_ .f32 0x00000000#32)))

/-- A node index as the gathers read it: a negative one counted from the end. -/
def wrap (v : TIdx F) : TIdx F :=
  select (cmpi .slt v (broadcastInDim S1700000 ![] bcast_S_S1700000 (constantI S_ 32 0#32))) (addi v (broadcastInDim S1700000 ![] bcast_S_S1700000 (constantI S_ 32 100000#32))) v

/-- An edge's coefficient: `dinv` at its source, times its weight, times `dinv` at its target. -/
def coef (s d : TIdx F) (w : TCoef F) (q : TNode F) : TCoef F :=
  mulf (mulf (Host.gather gather_S100000_S1700000x1_S1700000_n_0_n_n_0_1_1 q (broadcastInDim S1700000x1 ![0] bcast_S1700000_S1700000x1_0 (wrap s))) w)
    (Host.gather gather_S100000_S1700000x1_S1700000_n_0_n_n_0_1_1 q (broadcastInDim S1700000x1 ![0] bcast_S1700000_S1700000x1_0 (wrap d)))

/-- The coefficients of all edges, from the edge table. -/
def nrm (ei : TEdges F) : TCoef F := coef (src ei) (dst ei) wts (dinv (deg (dst ei) wts))

/-- The dense product of the node features with a weight matrix. -/
def mm (h : TFeat F) (w : TMat F) : TFeat F :=
  Host.dotGeneral dot_S100000x128_S128x128_S100000x128_1_0_0_1_n_n none h w

/-- The aggregation: row `source` of `p` scaled by the edge's coefficient, summed at the edge's target, plus the bias row. -/
def agg (s d : TIdx F) (nm : TCoef F) (p : TFeat F) (b : TBias F) : TFeat F :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d)
      (mulf (broadcastInDim S1700000x128 ![0, 1] bcast_S1700000x1_S1700000x128_0_1 (broadcastInDim S1700000x1 ![0] bcast_S1700000_S1700000x1_0 nm))
        (Host.gather gather_S100000x128_S1700000x1_S1700000x128_1_0_n_n_0_1_1128 p (broadcastInDim S1700000x1 ![0] bcast_S1700000_S1700000x1_0 (wrap s)))))
    (broadcastInDim S100000x128 ![0, 1] bcast_S1x128_S100000x128_0_1 (broadcastInDim S1x128 ![1] bcast_S128_S1x128_1 b))

/-- One layer: the dense product, then the aggregation. -/
def layer (s d : TIdx F) (nm : TCoef F) (h : TFeat F) (w : TMat F) (b : TBias F) : TFeat F := agg s d nm (mm h w) b

/-- The network: five layers over one graph. -/
def net (x : TFeat F) (ei : TEdges F) (w1 : TMat F) (b1 : TBias F) (w2 : TMat F) (b2 : TBias F) : TFeat F :=
  let s := src ei; let d := dst ei; let nm := nrm ei
  layer s d nm (layer s d nm (layer s d nm (layer s d nm (layer s d nm x w1 b1) w2 b2) w2 b2) w2 b2) w2 b2

end Cert.Spec

end
-- ==== Proof.KernelHost.lean ====
/-
  The kernel's host side, one stretch of host operations at a time.

  Between two launches of the dense product the kernel's @main runs the same host operations as the reference: the
  first stretch (in three pieces) computes the edge sources, targets and coefficients from the edge table; each later
  stretch gathers the rows of the product just computed at the edge sources, scales them by the coefficients, adds them
  up at the edge targets and adds a bias row. Read from ANY contents `W` of the buffers, the buffer a stretch ends in is
  the corresponding function of `Spec` of the buffers it read, and the buffers a later stretch still needs (sources,
  targets, coefficients, the second weight matrix and bias) are left as they were.
-/
import proofs.«173828_j90881507983767_1_alg».proof.Proof.Gen.KernelIdeal.Launch
import proofs.«173828_j90881507983767_1_alg».proof.Proof.Spec
import Idealize.ShloMosaic.Lib.StableHlo.Run

noncomputable section

namespace Cert.KernelIdeal.Hand

open Idealize.ShloMosaic Idealize.ShloMosaic.TcCoe Idealize.SL.Sem Idealize.ShloMosaic.StableHlo Cert.KernelIdeal Cert.KernelIdeal.Gen

variable {F : FTy → Type} [FloatOps F] (W : Valuation τ sig (Elt F))

/-! ## Before the first product: sources, targets, coefficients -/

/-- The buffer contents after the three pieces of the first stretch. -/
abbrev pre (W : Valuation τ sig (Elt F)) : Valuation τ sig (Elt F) := after hostOps0_2 (after hostOps0_1 (after hostOps0 W))

/-- The edge sources: row 0 of the edge table, then the loop edges. -/
theorem pre_src : pre W (Proc.devRef .tc main_v3) = Cert.Spec.src (W (Proc.devRef .tc main_arg1)) := by
  after_results_simp
  rfl

/-- The edge targets: row 1 of the edge table, then the loop edges. -/
theorem pre_dst : pre W (Proc.devRef .tc main_v6) = Cert.Spec.dst (W (Proc.devRef .tc main_arg1)) := by
  after_results_simp
  rfl

/-- The edge coefficients: inverse square root of the degree at the source, the weight, the same at the target. -/
theorem pre_nrm : pre W (Proc.devRef .tc main_v32) = Cert.Spec.nrm (W (Proc.devRef .tc main_arg1)) := by
  after_results_simp
  rfl

/-- The first stretch writes no argument: `main_arg0` is as launched. -/
theorem pre_main_arg0 : pre W (Proc.devRef .tc main_arg0) = W (Proc.devRef .tc main_arg0) := by
  after_results_simp

/-- The first stretch writes no argument: `main_arg2` is as launched. -/
theorem pre_main_arg2 : pre W (Proc.devRef .tc main_arg2) = W (Proc.devRef .tc main_arg2) := by
  after_results_simp

/-- The first stretch writes no argument: `main_arg3` is as launched. -/
theorem pre_main_arg3 : pre W (Proc.devRef .tc main_arg3) = W (Proc.devRef .tc main_arg3) := by
  after_results_simp

/-- The first stretch writes no argument: `main_arg4` is as launched. -/
theorem pre_main_arg4 : pre W (Proc.devRef .tc main_arg4) = W (Proc.devRef .tc main_arg4) := by
  after_results_simp

/-- The first stretch writes no argument: `main_arg5` is as launched. -/
theorem pre_main_arg5 : pre W (Proc.devRef .tc main_arg5) = W (Proc.devRef .tc main_arg5) := by
  after_results_simp

/-! ## After product 1: the aggregation -/

/-- The stretch ends in the aggregation of the product it found in `main_v33`, plus the bias row. -/
theorem agg1_out : after hostOps1 W (Proc.devRef .tc main_v49)
    = Cert.Spec.agg (W (Proc.devRef .tc main_v3)) (W (Proc.devRef .tc main_v6)) (W (Proc.devRef .tc main_v32)) (W (Proc.devRef .tc main_v33)) (W (Proc.devRef .tc main_arg3)) := by
  after_results_simp
  rfl

theorem agg1_main_v3 : after hostOps1 W (Proc.devRef .tc main_v3) = W (Proc.devRef .tc main_v3) := by
  after_results_simp

theorem agg1_main_v6 : after hostOps1 W (Proc.devRef .tc main_v6) = W (Proc.devRef .tc main_v6) := by
  after_results_simp

theorem agg1_main_v32 : after hostOps1 W (Proc.devRef .tc main_v32) = W (Proc.devRef .tc main_v32) := by
  after_results_simp

theorem agg1_main_arg4 : after hostOps1 W (Proc.devRef .tc main_arg4) = W (Proc.devRef .tc main_arg4) := by
  after_results_simp

theorem agg1_main_arg5 : after hostOps1 W (Proc.devRef .tc main_arg5) = W (Proc.devRef .tc main_arg5) := by
  after_results_simp

/-! ## After product 2: the aggregation -/

/-- The stretch ends in the aggregation of the product it found in `main_v50`, plus the bias row. -/
theorem agg2_out : after hostOps2 W (Proc.devRef .tc main_v66)
    = Cert.Spec.agg (W (Proc.devRef .tc main_v3)) (W (Proc.devRef .tc main_v6)) (W (Proc.devRef .tc main_v32)) (W (Proc.devRef .tc main_v50)) (W (Proc.devRef .tc main_arg5)) := by
  after_results_simp
  rfl

theorem agg2_main_v3 : after hostOps2 W (Proc.devRef .tc main_v3) = W (Proc.devRef .tc main_v3) := by
  after_results_simp

theorem agg2_main_v6 : after hostOps2 W (Proc.devRef .tc main_v6) = W (Proc.devRef .tc main_v6) := by
  after_results_simp

theorem agg2_main_v32 : after hostOps2 W (Proc.devRef .tc main_v32) = W (Proc.devRef .tc main_v32) := by
  after_results_simp

theorem agg2_main_arg4 : after hostOps2 W (Proc.devRef .tc main_arg4) = W (Proc.devRef .tc main_arg4) := by
  after_results_simp

theorem agg2_main_arg5 : after hostOps2 W (Proc.devRef .tc main_arg5) = W (Proc.devRef .tc main_arg5) := by
  after_results_simp

/-! ## After product 3: the aggregation -/

/-- The stretch ends in the aggregation of the product it found in `main_v67`, plus the bias row. -/
theorem agg3_out : after hostOps3 W (Proc.devRef .tc main_v83)
    = Cert.Spec.agg (W (Proc.devRef .tc main_v3)) (W (Proc.devRef .tc main_v6)) (W (Proc.devRef .tc main_v32)) (W (Proc.devRef .tc main_v67)) (W (Proc.devRef .tc main_arg5)) := by
  after_results_simp
  rfl

theorem agg3_main_v3 : after hostOps3 W (Proc.devRef .tc main_v3) = W (Proc.devRef .tc main_v3) := by
  after_results_simp

theorem agg3_main_v6 : after hostOps3 W (Proc.devRef .tc main_v6) = W (Proc.devRef .tc main_v6) := by
  after_results_simp

theorem agg3_main_v32 : after hostOps3 W (Proc.devRef .tc main_v32) = W (Proc.devRef .tc main_v32) := by
  after_results_simp

theorem agg3_main_arg4 : after hostOps3 W (Proc.devRef .tc main_arg4) = W (Proc.devRef .tc main_arg4) := by
  after_results_simp

theorem agg3_main_arg5 : after hostOps3 W (Proc.devRef .tc main_arg5) = W (Proc.devRef .tc main_arg5) := by
  after_results_simp

/-! ## After product 4: the aggregation -/

/-- The stretch ends in the aggregation of the product it found in `main_v84`, plus the bias row. -/
theorem agg4_out : after hostOps4 W (Proc.devRef .tc main_v100)
    = Cert.Spec.agg (W (Proc.devRef .tc main_v3)) (W (Proc.devRef .tc main_v6)) (W (Proc.devRef .tc main_v32)) (W (Proc.devRef .tc main_v84)) (W (Proc.devRef .tc main_arg5)) := by
  after_results_simp
  rfl

theorem agg4_main_v3 : after hostOps4 W (Proc.devRef .tc main_v3) = W (Proc.devRef .tc main_v3) := by
  after_results_simp

theorem agg4_main_v6 : after hostOps4 W (Proc.devRef .tc main_v6) = W (Proc.devRef .tc main_v6) := by
  after_results_simp

theorem agg4_main_v32 : after hostOps4 W (Proc.devRef .tc main_v32) = W (Proc.devRef .tc main_v32) := by
  after_results_simp

theorem agg4_main_arg4 : after hostOps4 W (Proc.devRef .tc main_arg4) = W (Proc.devRef .tc main_arg4) := by
  after_results_simp

theorem agg4_main_arg5 : after hostOps4 W (Proc.devRef .tc main_arg5) = W (Proc.devRef .tc main_arg5) := by
  after_results_simp

/-! ## After product 5: the aggregation -/

/-- The stretch ends in the aggregation of the product it found in `main_v101`, plus the bias row. -/
theorem agg5_out : after hostOps5 W (Proc.devRef .tc main_v117)
    = Cert.Spec.agg (W (Proc.devRef .tc main_v3)) (W (Proc.devRef .tc main_v6)) (W (Proc.devRef .tc main_v32)) (W (Proc.devRef .tc main_v101)) (W (Proc.devRef .tc main_arg5)) := by
  after_results_simp
  rfl

end Cert.KernelIdeal.Hand

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.Tile.lean ====
/-
  The value of a kernel region: each of the five tiled matrix products leaves in its output array the plain matrix
  product of its two input arrays, as a whole array.

  A region runs over 20 grid points. Point t reads rows 5000 t … 5000 t + 4999 of the feature array X (100000 × 128)
  and the whole weight table W (128 × 128), and writes the product of that row tile with W into the same rows of the
  output. At the extended reals the casts to the narrower float format are the identity and a product accumulated from
  zero is the exact sum of products, so entry (p, q) of the tile's product is ∑ c, X (5000 t + p, c) · W (c, q): entry
  (5000 t + p, q) of X · W, which depends on row 5000 t + p of X alone. Hence what point t writes back is block t of
  X · W; every row r lies in the block of point r / 5000, so the 20 blocks cover the array and the output ends holding
  X · W.

  Per region K: the payload at an index over any tile and table (`payK_tile`), the index maps over the grid
  (`idx_factsK`), the input blocks' entries as entries of the arrays (`iblkK_0_apply`, `iblkK_1_apply`), a tile's
  write-back as a block of the product (`tile_blockK`, then `flushedK_eq` at the region's own blocks), membership in a
  block by coordinates (`mem_blkK`), the cover (`coverK`), and the whole array (`regionK`). The five regions differ
  only in the arrays they read and write (regions 1–4 also reshape the tile to its own shape first, the identity).
-/
import proofs.«173828_j90881507983767_1_alg».proof.Proof.Gen.KernelIdeal.Frame
import proofs.«173828_j90881507983767_1_alg».proof.Proof.Spec
import proofs.«173828_j90881507983767_1_alg».proof.Proof.LibTileMatmul
import Idealize.ShloMosaic.Lib.Pipeline.Value
import Idealize.ShloMosaic.Lib.ValueIdx

noncomputable section

namespace Cert.KernelIdeal.Tile

open Idealize.ShloMosaic Idealize.ShloMosaic.TcCoe Idealize.SL.Sem Cert.KernelIdeal Cert.KernelIdeal.Gen
open Idealize.ShloMosaic.ValueIdx Idealize.ShloMosaic.TileMatmul

/-- The zero offsets of a whole-buffer access, as a constant function. -/
theorem hz : (![0, 0] : Fin 2 → Nat) = fun _ => 0 := funext fun a => by fin_cases a <;> rfl

section Region0

variable (V : (c : Dev nD) → (b : Ref sig .tc) → Buf (Elt Ideal) ((c : Thread nD τ).loc b))

/-- The tile's product at (p, q) is the whole product at (i, q), when row p of the tile is row i of the array and
    the two weight tables agree on column q: both are the sum over the 128 contracted coordinates of the same
    products, the casts to the narrower float format being the identity at the extended reals. -/
theorem pay0_tile (x0 : Vec Ideal S5000x128 .f32) (x1 : Vec Ideal S128x128 .f32)
    (X : Cert.Spec.TFeat Ideal) (W : Cert.Spec.TMat Ideal)
    (p : Fin 5000) (q : Fin 128) (i : Fin 100000)
    (hx0 : ∀ c : Fin 128, x0 (ix2 p c) = X (ix2 i c))
    (hx1 : ∀ c : Fin 128, x1 (ix2 c q) = W (ix2 c q)) :
    k0_pay1 (F := Ideal) x0 x1 (ix2 p q) = Cert.Spec.mm (F := Ideal) X W (ix2 i q) := by
  unfold k0_pay1 Cert.Spec.mm
  exact matmul_tile_eq_dotGeneral dot_S5000x128_S128x128_S5000x128_1_0_0_1_n_n_wf
    Cert.ReferenceIdeal.Facts₀.dot_S100000x128_S128x128_S100000x128_1_0_0_1_n_n_wf none none
    (truncf .bf16 x0 bitsLt_bf16_f32) (truncf .bf16 x1 bitsLt_bf16_f32) X W p q i hx0 hx1

/-- The printed index maps, decided over the 20 grid points: the feature window and the output window are at block
    row t, column block 0; the weight window is at block (0, 0) throughout. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of the feature window's block at point t is entry (5000 t + p, q) of the feature array. -/
theorem iblk0_0_apply (c : Dev nD) (t : Fin cfg0.N) (p : Fin 5000) (q : Fin 128) (i : Fin 100000)
    (hi : i.val = 5000 * t.val + p.val) :
    (iblk0 (F := Ideal) V c 0 t : Vec Ideal S5000x128 .f32) (ix2 p q)
      = (V c main_arg0 : S100000x128.Idx → Elt Ideal .f32) (ix2 i q) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * p.val = i.val; rw [e0, hi]; omega
  | ⟨1, _⟩ => show win0_0.index t 1 * 128 + 1 * q.val = q.val; rw [e1]; omega

/-- The weight window's block at any point is the whole weight table. -/
theorem iblk0_1_apply (c : Dev nD) (t : Fin cfg0.N) (a : Fin 128) (b : Fin 128) :
    (iblk0 (F := Ideal) V c 1 t : Vec Ideal S128x128 .f32) (ix2 a b)
      = (V c main_arg2 : S128x128.Idx → Elt Ideal .f32) (ix2 a b) := by
  obtain ⟨-, -, e2, e3, -⟩ := idx_facts0 t
  unfold iblk0
  rw [View.read_apply]
  show V c main_arg2 _ = V c main_arg2 _
  congr 1
  funext d
  apply Fin.ext
  match d with
  | ⟨0, _⟩ => show win0_1.index t 0 * 128 + 1 * a.val = a.val; rw [e2]; omega
  | ⟨1, _⟩ => show win0_1.index t 1 * 128 + 1 * b.val = b.val; rw [e3]; omega

/-- A TILE'S WRITE-BACK, over any tile and table: if the tile x0 holds rows 5000 t … 5000 t + 4999 of X and x1 holds
    W, then what point t writes back — the product of the tile with the table — is block t of the whole product X · W:
    row p of the block is row 5000 t + p of the product, which depends on row 5000 t + p of X only. -/
theorem tile_block0 (t : Fin cfg0.N) (x0 : Vec Ideal S5000x128 .f32) (x1 : Vec Ideal S128x128 .f32)
    (X : Cert.Spec.TFeat Ideal) (W : Cert.Spec.TMat Ideal)
    (hx0 : ∀ (p : Fin 5000) (q : Fin 128) (i : Fin 100000), i.val = 5000 * t.val + p.val → x0 (ix2 p q) = X (ix2 i q))
    (hx1 : ∀ (a b : Fin 128), x1 (ix2 a b) = W (ix2 a b)) :
    (cfg0.win 2).cut (grid0.coords t) (k0_pay1 (F := Ideal) x0 x1)
      = ((cfg0.win 2).blk t).view.read (Elt Ideal) (Cert.Spec.mm (F := Ideal) X W) := by
  obtain ⟨-, -, -, -, e4, e5⟩ := idx_facts0 t
  have hN : t.val < 20 := t.isLt
  funext j
  obtain ⟨p, q, rfl⟩ : ∃ (p : Fin 5000) (q : Fin 128), j = ix2 p q := ⟨j 0, j 1, eq_ix2 j⟩
  rw [View.read_apply]
  have hp : p.val < 5000 := p.isLt
  have hemb : ((cfg0.win 2).blk t).view.emb (ix2 p q) = ix2 (⟨5000 * t.val + p.val, by omega⟩ : Fin 100000) q := by
    funext a
    apply Fin.ext
    match a with
    | ⟨0, _⟩ => show win0_2.index t 0 * 5000 + 1 * p.val = 5000 * t.val + p.val; rw [e4]; omega
    | ⟨1, _⟩ => show win0_2.index t 1 * 128 + 1 * q.val = q.val; rw [e5]; omega
  rw [hemb]
  exact pay0_tile x0 x1 X W p q ⟨5000 * t.val + p.val, by omega⟩ (fun c => hx0 p c _ rfl) (fun c => hx1 c q)

/-- WHAT POINT t WRITES BACK is block t of the product of the feature array with the weight table, as the region
    finds them. -/
theorem flushed0_eq (c : Dev nD) (t : Fin cfg0.N) :
    (dat0 (F := Ideal) V c).flushed 2 t
      = ((cfg0.win 2).blk t).view.read (Elt Ideal) (Cert.Spec.mm (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  exact tile_block0 t _ _ _ _ (fun p q i hi => iblk0_0_apply V c t p q i hi) (fun a b => iblk0_1_apply V c t a b)

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- The 20 blocks of 5000 rows tile the 100000 rows: row r is in the block of point r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- REGION 0: the output array ends holding the product of the feature array with the weight table. -/
theorem region0 (c : Dev nD) :
    (dat0 (F := Ideal) V c).arrAt 2 cfg0.N = Cert.Spec.mm (F := Ideal) (V c main_arg0) (V c main_arg2) :=
  (dat0 (F := Ideal) V c).arrAt_eq_of_cover 2 (Cert.Spec.mm (F := Ideal) (V c main_arg0) (V c main_arg2))
    (fun t _ => flushed0_eq V c t) cover0

end Region0

section Region1

variable (V : (c : Dev nD) → (b : Ref sig .tc) → Buf (Elt Ideal) ((c : Thread nD τ).loc b))

/-- The tile's product at (p, q) is the whole product at (i, q), when row p of the tile is row i of the array and
    the two weight tables agree on column q: both are the sum over the 128 contracted coordinates of the same
    products, the casts to the narrower float format being the identity at the extended reals, and the tile's
    reshaping to its own shape the identity. -/
theorem pay1_tile (x0 : Vec Ideal S5000x128 .f32) (x1 : Vec Ideal S128x128 .f32)
    (X : Cert.Spec.TFeat Ideal) (W : Cert.Spec.TMat Ideal)
    (p : Fin 5000) (q : Fin 128) (i : Fin 100000)
    (hx0 : ∀ c : Fin 128, x0 (ix2 p c) = X (ix2 i c))
    (hx1 : ∀ c : Fin 128, x1 (ix2 c q) = W (ix2 c q)) :
    k1_pay1 (F := Ideal) x0 x1 (ix2 p q) = Cert.Spec.mm (F := Ideal) X W (ix2 i q) := by
  unfold k1_pay1 Cert.Spec.mm
  rw [shapeCast_self]
  exact matmul_tile_eq_dotGeneral dot_S5000x128_S128x128_S5000x128_1_0_0_1_n_n_wf
    Cert.ReferenceIdeal.Facts₀.dot_S100000x128_S128x128_S100000x128_1_0_0_1_n_n_wf none none
    (truncf .bf16 x0 bitsLt_bf16_f32) (truncf .bf16 x1 bitsLt_bf16_f32) X W p q i hx0 hx1

/-- The printed index maps, decided over the 20 grid points: the feature window and the output window are at block
    row t, column block 0; the weight window is at block (0, 0) throughout. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of the feature window's block at point t is entry (5000 t + p, q) of the feature array. -/
theorem iblk1_0_apply (c : Dev nD) (t : Fin cfg1.N) (p : Fin 5000) (q : Fin 128) (i : Fin 100000)
    (hi : i.val = 5000 * t.val + p.val) :
    (iblk1 (F := Ideal) V c 0 t : Vec Ideal S5000x128 .f32) (ix2 p q)
      = (V c main_v49 : S100000x128.Idx → Elt Ideal .f32) (ix2 i q) := by
  obtain ⟨e0, e1, -⟩ := idx_facts1 t
  unfold iblk1
  rw [View.read_apply]
  show V c main_v49 _ = V c main_v49 _
  congr 1
  funext a
  apply Fin.ext
  match a with
  | ⟨0, _⟩ => show win1_0.index t 0 * 5000 + 1 * p.val = i.val; rw [e0, hi]; omega
  | ⟨1, _⟩ => show win1_0.index t 1 * 128 + 1 * q.val = q.val; rw [e1]; omega

/-- The weight window's block at any point is the whole weight table. -/
theorem iblk1_1_apply (c : Dev nD) (t : Fin cfg1.N) (a : Fin 128) (b : Fin 128) :
    (iblk1 (F := Ideal) V c 1 t : Vec Ideal S128x128 .f32) (ix2 a b)
      = (V c main_arg4 : S128x128.Idx → Elt Ideal .f32) (ix2 a b) := by
  obtain ⟨-, -, e2, e3, -⟩ := idx_facts1 t
  unfold iblk1
  rw [View.read_apply]
  show V c main_arg4 _ = V c main_arg4 _
  congr 1
  funext d
  apply Fin.ext
  match d with
  | ⟨0, _⟩ => show win1_1.index t 0 * 128 + 1 * a.val = a.val; rw [e2]; omega
  | ⟨1, _⟩ => show win1_1.index t 1 * 128 + 1 * b.val = b.val; rw [e3]; omega

/-- A TILE'S WRITE-BACK, over any tile and table: if the tile x0 holds rows 5000 t … 5000 t + 4999 of X and x1 holds
    W, then what point t writes back — the product of the tile with the table — is block t of the whole product X · W:
    row p of the block is row 5000 t + p of the product, which depends on row 5000 t + p of X only. -/
theorem tile_block1 (t : Fin cfg1.N) (x0 : Vec Ideal S5000x128 .f32) (x1 : Vec Ideal S128x128 .f32)
    (X : Cert.Spec.TFeat Ideal) (W : Cert.Spec.TMat Ideal)
    (hx0 : ∀ (p : Fin 5000) (q : Fin 128) (i : Fin 100000), i.val = 5000 * t.val + p.val → x0 (ix2 p q) = X (ix2 i q))
    (hx1 : ∀ (a b : Fin 128), x1 (ix2 a b) = W (ix2 a b)) :
    (cfg1.win 2).cut (grid1.coords t) (k1_pay1 (F := Ideal) x0 x1)
      = ((cfg1.win 2).blk t).view.read (Elt Ideal) (Cert.Spec.mm (F := Ideal) X W) := by
  obtain ⟨-, -, -, -, e4, e5⟩ := idx_facts1 t
  have hN : t.val < 20 := t.isLt
  funext j
  obtain ⟨p, q, rfl⟩ : ∃ (p : Fin 5000) (q : Fin 128), j = ix2 p q := ⟨j 0, j 1, eq_ix2 j⟩
  rw [View.read_apply]
  have hp : p.val < 5000 := p.isLt
  have hemb : ((cfg1.win 2).blk t).view.emb (ix2 p q) = ix2 (⟨5000 * t.val + p.val, by omega⟩ : Fin 100000) q := by
    funext a
    apply Fin.ext
    match a with
    | ⟨0, _⟩ => show win1_2.index t 0 * 5000 + 1 * p.val = 5000 * t.val + p.val; rw [e4]; omega
    | ⟨1, _⟩ => show win1_2.index t 1 * 128 + 1 * q.val = q.val; rw [e5]; omega
  rw [hemb]
  exact pay1_tile x0 x1 X W p q ⟨5000 * t.val + p.val, by omega⟩ (fun c => hx0 p c _ rfl) (fun c => hx1 c q)

/-- WHAT POINT t WRITES BACK is block t of the product of the feature array with the weight table, as the region
    finds them. -/
theorem flushed1_eq (c : Dev nD) (t : Fin cfg1.N) :
    (dat1 (F := Ideal) V c).flushed 2 t
      = ((cfg1.win 2).blk t).view.read (Elt Ideal) (Cert.Spec.mm (F := Ideal) (V c main_v49) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  exact tile_block1 t _ _ _ _ (fun p q i hi => iblk1_0_apply V c t p q i hi) (fun a b => iblk1_1_apply V c t a b)

/-- An index of the output array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- The 20 blocks of 5000 rows tile the 100000 rows: row r is in the block of point r / 5000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, e4, e5⟩ := idx_facts1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 128 ≤ (i 1).val ∧ (i 1).val < win1_2.index t (1 : Fin 2) * 128 + 128; rw [e5]; omega

/-- REGION 1: the output array ends holding the product of the feature array with the weight table. -/
theorem region1 (c : Dev nD) :
    (dat1 (F := Ideal) V c).arrAt 2 cfg1.N = Cert.Spec.mm (F := Ideal) (V c main_v49) (V c main_arg4) :=
  (dat1 (F := Ideal) V c).arrAt_eq_of_cover 2 (Cert.Spec.mm (F := Ideal) (V c main_v49) (V c main_arg4))
    (fun t _ => flushed1_eq V c t) cover1

end Region1

section Region2

variable (V : (c : Dev nD) → (b : Ref sig .tc) → Buf (Elt Ideal) ((c : Thread nD τ).loc b))

/-- The tile's product at (p, q) is the whole product at (i, q), when row p of the tile is row i of the array and
    the two weight tables agree on column q: both are the sum over the 128 contracted coordinates of the same
    products, the casts to the narrower float format being the identity at the extended reals, and the tile's
    reshaping to its own shape the identity. -/
theorem pay2_tile (x0 : Vec Ideal S5000x128 .f32) (x1 : Vec Ideal S128x128 .f32)
    (X : Cert.Spec.TFeat Ideal) (W : Cert.Spec.TMat Ideal)
    (p : Fin 5000) (q : Fin 128) (i : Fin 100000)
    (hx0 : ∀ c : Fin 128, x0 (ix2 p c) = X (ix2 i c))
    (hx1 : ∀ c : Fin 128, x1 (ix2 c q) = W (ix2 c q)) :
    k2_pay1 (F := Ideal) x0 x1 (ix2 p q) = Cert.Spec.mm (F := Ideal) X W (ix2 i q) := by
  unfold k2_pay1 Cert.Spec.mm
  rw [shapeCast_self]
  exact matmul_tile_eq_dotGeneral dot_S5000x128_S128x128_S5000x128_1_0_0_1_n_n_wf
    Cert.ReferenceIdeal.Facts₀.dot_S100000x128_S128x128_S100000x128_1_0_0_1_n_n_wf none none
    (truncf .bf16 x0 bitsLt_bf16_f32) (truncf .bf16 x1 bitsLt_bf16_f32) X W p q i hx0 hx1

/-- The printed index maps, decided over the 20 grid points: the feature window and the output window are at block
    row t, column block 0; the weight window is at block (0, 0) throughout. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, q) of the feature window's block at point t is entry (5000 t + p, q) of the feature array. -/
theorem iblk2_0_apply (c : Dev nD) (t : Fin cfg2.N) (p : Fin 5000) (q : Fin 128) (i : Fin 100000)
    (hi : i.val = 5000 * t.val + p.val) :
    (iblk2 (F := Ideal) V c 0 t : Vec Ideal S5000x128 .f32) (ix2 p q)
      = (V c main_v66 : S100000x128.Idx → Elt Ideal .f32) (ix2 i q) := by
  obtain ⟨e0, e1, -⟩ := idx_facts2 t
  unfold iblk2
  rw [View.read_apply]
  show V c main_v66 _ = V c main_v66 _
  congr 1
  funext a
  apply Fin.ext
  match a with
  | ⟨0, _⟩ => show win2_0.index t 0 * 5000 + 1 * p.val = i.val; rw [e0, hi]; omega
  | ⟨1, _⟩ => show win2_0.index t 1 * 128 + 1 * q.val = q.val; rw [e1]; omega

/-- The weight window's block at any point is the whole weight table. -/
theorem iblk2_1_apply (c : Dev nD) (t : Fin cfg2.N) (a : Fin 128) (b : Fin 128) :
    (iblk2 (F := Ideal) V c 1 t : Vec Ideal S128x128 .f32) (ix2 a b)
      = (V c main_arg4 : S128x128.Idx → Elt Ideal .f32) (ix2 a b) := by
  obtain ⟨-, -, e2, e3, -⟩ := idx_facts2 t
  unfold iblk2
  rw [View.read_apply]
  show V c main_arg4 _ = V c main_arg4 _
  congr 1
  funext d
  apply Fin.ext
  match d with
  | ⟨0, _⟩ => show win2_1.index t 0 * 128 + 1 * a.val = a.val; rw [e2]; omega
  | ⟨1, _⟩ => show win2_1.index t 1 * 128 + 1 * b.val = b.val; rw [e3]; omega

/-- A TILE'S WRITE-BACK, over any tile and table: if the tile x0 holds rows 5000 t … 5000 t + 4999 of X and x1 holds
    W, then what point t writes back — the product of the tile with the table — is block t of the whole product X · W:
    row p of the block is row 5000 t + p of the product, which depends on row 5000 t + p of X only. -/
theorem tile_block2 (t : Fin cfg2.N) (x0 : Vec Ideal S5000x128 .f32) (x1 : Vec Ideal S128x128 .f32)
    (X : Cert.Spec.TFeat Ideal) (W : Cert.Spec.TMat Ideal)
    (hx0 : ∀ (p : Fin 5000) (q : Fin 128) (i : Fin 100000), i.val = 5000 * t.val + p.val → x0 (ix2 p q) = X (ix2 i q))
    (hx1 : ∀ (a b : Fin 128), x1 (ix2 a b) = W (ix2 a b)) :
    (cfg2.win 2).cut (grid2.coords t) (k2_pay1 (F := Ideal) x0 x1)
      = ((cfg2.win 2).blk t).view.read (Elt Ideal) (Cert.Spec.mm (F := Ideal) X W) := by
  obtain ⟨-, -, -, -, e4, e5⟩ := idx_facts2 t
  have hN : t.val < 20 := t.isLt
  funext j
  obtain ⟨p, q, rfl⟩ : ∃ (p : Fin 5000) (q : Fin 128), j = ix2 p q := ⟨j 0, j 1, eq_ix2 j⟩
  rw [View.read_apply]
  have hp : p.val < 5000 := p.isLt
  have hemb : ((cfg2.win 2).blk t).view.emb (ix2 p q) = ix2 (⟨5000 * t.val + p.val, by omega⟩ : Fin 100000) q := by
    funext a
    apply Fin.ext
    match a with
    | ⟨0, _⟩ => show win2_2.index t 0 * 5000 + 1 * p.val = 5000 * t.val + p.val; rw [e4]; omega
    | ⟨1, _⟩ => show win2_2.index t 1 * 128 + 1 * q.val = q.val; rw [e5]; omega
  rw [hemb]
  exact pay2_tile x0 x1 X W p q ⟨5000 * t.val + p.val, by omega⟩ (fun c => hx0 p c _ rfl) (fun c => hx1 c q)

/-- WHAT POINT t WRITES BACK is block t of the product of the feature array with the weight table, as the region
    finds them. -/
theorem flushed2_eq (c : Dev nD) (t : Fin cfg2.N) :
    (dat2 (F := Ideal) V c).flushed 2 t
      = ((cfg2.win 2).blk t).view.read (Elt Ideal) (Cert.Spec.mm (F := Ideal) (V c main_v66) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  exact tile_block2 t _ _ _ _ (fun p q i hi => iblk2_0_apply V c t p q i hi) (fun a b => iblk2_1_apply V c t a b)

/-- An index of the output array is in point t's block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v67).slice (win2_2.rect t)).set ↔ _
  rw [View.set_slice_whole, Rect.mem_set_unit]
  exact Iff.rfl

/-- The 20 blocks of 5000 rows tile the 100000 rows: row r is in the block of point r / 5000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, e4, e5⟩ := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 128 ≤ (i 1).val ∧ (i 1).val < win2_2.index t (1 : Fin 2) * 128 + 128; rw [e5]; omega

/-- REGION 2: the output array ends holding the product of the feature array with the weight table. -/
theorem region2 (c : Dev nD) :
    (dat2 (F := Ideal) V c).arrAt 2 cfg2.N = Cert.Spec.mm (F := Ideal) (V c main_v66) (V c main_arg4) :=
  (dat2 (F := Ideal) V c).arrAt_eq_of_cover 2 (Cert.Spec.mm (F := Ideal) (V c main_v66) (V c main_arg4))
    (fun t _ => flushed2_eq V c t) cover2

end Region2

section Region3

variable (V : (c : Dev nD) → (b : Ref sig .tc) → Buf (Elt Ideal) ((c : Thread nD τ).loc b))

/-- The tile's product at (p, q) is the whole product at (i, q), when row p of the tile is row i of the array and
    the two weight tables agree on column q: both are the sum over the 128 contracted coordinates of the same
    products, the casts to the narrower float format being the identity at the extended reals, and the tile's
    reshaping to its own shape the identity. -/
theorem pay3_tile (x0 : Vec Ideal S5000x128 .f32) (x1 : Vec Ideal S128x128 .f32)
    (X : Cert.Spec.TFeat Ideal) (W : Cert.Spec.TMat Ideal)
    (p : Fin 5000) (q : Fin 128) (i : Fin 100000)
    (hx0 : ∀ c : Fin 128, x0 (ix2 p c) = X (ix2 i c))
    (hx1 : ∀ c : Fin 128, x1 (ix2 c q) = W (ix2 c q)) :
    k3_pay1 (F := Ideal) x0 x1 (ix2 p q) = Cert.Spec.mm (F := Ideal) X W (ix2 i q) := by
  unfold k3_pay1 Cert.Spec.mm
  rw [shapeCast_self]
  exact matmul_tile_eq_dotGeneral dot_S5000x128_S128x128_S5000x128_1_0_0_1_n_n_wf
    Cert.ReferenceIdeal.Facts₀.dot_S100000x128_S128x128_S100000x128_1_0_0_1_n_n_wf none none
    (truncf .bf16 x0 bitsLt_bf16_f32) (truncf .bf16 x1 bitsLt_bf16_f32) X W p q i hx0 hx1

/-- The printed index maps, decided over the 20 grid points: the feature window and the output window are at block
    row t, column block 0; the weight window is at block (0, 0) throughout. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of the feature window's block at point t is entry (5000 t + p, q) of the feature array. -/
theorem iblk3_0_apply (c : Dev nD) (t : Fin cfg3.N) (p : Fin 5000) (q : Fin 128) (i : Fin 100000)
    (hi : i.val = 5000 * t.val + p.val) :
    (iblk3 (F := Ideal) V c 0 t : Vec Ideal S5000x128 .f32) (ix2 p q)
      = (V c main_v83 : S100000x128.Idx → Elt Ideal .f32) (ix2 i q) := by
  obtain ⟨e0, e1, -⟩ := idx_facts3 t
  unfold iblk3
  rw [View.read_apply]
  show V c main_v83 _ = V c main_v83 _
  congr 1
  funext a
  apply Fin.ext
  match a with
  | ⟨0, _⟩ => show win3_0.index t 0 * 5000 + 1 * p.val = i.val; rw [e0, hi]; omega
  | ⟨1, _⟩ => show win3_0.index t 1 * 128 + 1 * q.val = q.val; rw [e1]; omega

/-- The weight window's block at any point is the whole weight table. -/
theorem iblk3_1_apply (c : Dev nD) (t : Fin cfg3.N) (a : Fin 128) (b : Fin 128) :
    (iblk3 (F := Ideal) V c 1 t : Vec Ideal S128x128 .f32) (ix2 a b)
      = (V c main_arg4 : S128x128.Idx → Elt Ideal .f32) (ix2 a b) := by
  obtain ⟨-, -, e2, e3, -⟩ := idx_facts3 t
  unfold iblk3
  rw [View.read_apply]
  show V c main_arg4 _ = V c main_arg4 _
  congr 1
  funext d
  apply Fin.ext
  match d with
  | ⟨0, _⟩ => show win3_1.index t 0 * 128 + 1 * a.val = a.val; rw [e2]; omega
  | ⟨1, _⟩ => show win3_1.index t 1 * 128 + 1 * b.val = b.val; rw [e3]; omega

/-- A TILE'S WRITE-BACK, over any tile and table: if the tile x0 holds rows 5000 t … 5000 t + 4999 of X and x1 holds
    W, then what point t writes back — the product of the tile with the table — is block t of the whole product X · W:
    row p of the block is row 5000 t + p of the product, which depends on row 5000 t + p of X only. -/
theorem tile_block3 (t : Fin cfg3.N) (x0 : Vec Ideal S5000x128 .f32) (x1 : Vec Ideal S128x128 .f32)
    (X : Cert.Spec.TFeat Ideal) (W : Cert.Spec.TMat Ideal)
    (hx0 : ∀ (p : Fin 5000) (q : Fin 128) (i : Fin 100000), i.val = 5000 * t.val + p.val → x0 (ix2 p q) = X (ix2 i q))
    (hx1 : ∀ (a b : Fin 128), x1 (ix2 a b) = W (ix2 a b)) :
    (cfg3.win 2).cut (grid3.coords t) (k3_pay1 (F := Ideal) x0 x1)
      = ((cfg3.win 2).blk t).view.read (Elt Ideal) (Cert.Spec.mm (F := Ideal) X W) := by
  obtain ⟨-, -, -, -, e4, e5⟩ := idx_facts3 t
  have hN : t.val < 20 := t.isLt
  funext j
  obtain ⟨p, q, rfl⟩ : ∃ (p : Fin 5000) (q : Fin 128), j = ix2 p q := ⟨j 0, j 1, eq_ix2 j⟩
  rw [View.read_apply]
  have hp : p.val < 5000 := p.isLt
  have hemb : ((cfg3.win 2).blk t).view.emb (ix2 p q) = ix2 (⟨5000 * t.val + p.val, by omega⟩ : Fin 100000) q := by
    funext a
    apply Fin.ext
    match a with
    | ⟨0, _⟩ => show win3_2.index t 0 * 5000 + 1 * p.val = 5000 * t.val + p.val; rw [e4]; omega
    | ⟨1, _⟩ => show win3_2.index t 1 * 128 + 1 * q.val = q.val; rw [e5]; omega
  rw [hemb]
  exact pay3_tile x0 x1 X W p q ⟨5000 * t.val + p.val, by omega⟩ (fun c => hx0 p c _ rfl) (fun c => hx1 c q)

/-- WHAT POINT t WRITES BACK is block t of the product of the feature array with the weight table, as the region
    finds them. -/
theorem flushed3_eq (c : Dev nD) (t : Fin cfg3.N) :
    (dat3 (F := Ideal) V c).flushed 2 t
      = ((cfg3.win 2).blk t).view.read (Elt Ideal) (Cert.Spec.mm (F := Ideal) (V c main_v83) (V c main_arg4)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  exact tile_block3 t _ _ _ _ (fun p q i hi => iblk3_0_apply V c t p q i hi) (fun a b => iblk3_1_apply V c t a b)

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v84).slice (win3_2.rect t)).set ↔ _
  rw [View.set_slice_whole, Rect.mem_set_unit]
  exact Iff.rfl

/-- The 20 blocks of 5000 rows tile the 100000 rows: row r is in the block of point r / 5000. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨-, -, -, -, e4, e5⟩ := idx_facts3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 128 ≤ (i 1).val ∧ (i 1).val < win3_2.index t (1 : Fin 2) * 128 + 128; rw [e5]; omega

/-- REGION 3: the output array ends holding the product of the feature array with the weight table. -/
theorem region3 (c : Dev nD) :
    (dat3 (F := Ideal) V c).arrAt 2 cfg3.N = Cert.Spec.mm (F := Ideal) (V c main_v83) (V c main_arg4) :=
  (dat3 (F := Ideal) V c).arrAt_eq_of_cover 2 (Cert.Spec.mm (F := Ideal) (V c main_v83) (V c main_arg4))
    (fun t _ => flushed3_eq V c t) cover3

end Region3

section Region4

variable (V : (c : Dev nD) → (b : Ref sig .tc) → Buf (Elt Ideal) ((c : Thread nD τ).loc b))

/-- The tile's product at (p, q) is the whole product at (i, q), when row p of the tile is row i of the array and
    the two weight tables agree on column q: both are the sum over the 128 contracted coordinates of the same
    products, the casts to the narrower float format being the identity at the extended reals, and the tile's
    reshaping to its own shape the identity. -/
theorem pay4_tile (x0 : Vec Ideal S5000x128 .f32) (x1 : Vec Ideal S128x128 .f32)
    (X : Cert.Spec.TFeat Ideal) (W : Cert.Spec.TMat Ideal)
    (p : Fin 5000) (q : Fin 128) (i : Fin 100000)
    (hx0 : ∀ c : Fin 128, x0 (ix2 p c) = X (ix2 i c))
    (hx1 : ∀ c : Fin 128, x1 (ix2 c q) = W (ix2 c q)) :
    k4_pay1 (F := Ideal) x0 x1 (ix2 p q) = Cert.Spec.mm (F := Ideal) X W (ix2 i q) := by
  unfold k4_pay1 Cert.Spec.mm
  rw [shapeCast_self]
  exact matmul_tile_eq_dotGeneral dot_S5000x128_S128x128_S5000x128_1_0_0_1_n_n_wf
    Cert.ReferenceIdeal.Facts₀.dot_S100000x128_S128x128_S100000x128_1_0_0_1_n_n_wf none none
    (truncf .bf16 x0 bitsLt_bf16_f32) (truncf .bf16 x1 bitsLt_bf16_f32) X W p q i hx0 hx1

/-- The printed index maps, decided over the 20 grid points: the feature window and the output window are at block
    row t, column block 0; the weight window is at block (0, 0) throughout. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry (p, q) of the feature window's block at point t is entry (5000 t + p, q) of the feature array. -/
theorem iblk4_0_apply (c : Dev nD) (t : Fin cfg4.N) (p : Fin 5000) (q : Fin 128) (i : Fin 100000)
    (hi : i.val = 5000 * t.val + p.val) :
    (iblk4 (F := Ideal) V c 0 t : Vec Ideal S5000x128 .f32) (ix2 p q)
      = (V c main_v100 : S100000x128.Idx → Elt Ideal .f32) (ix2 i q) := by
  obtain ⟨e0, e1, -⟩ := idx_facts4 t
  unfold iblk4
  rw [View.read_apply]
  show V c main_v100 _ = V c main_v100 _
  congr 1
  funext a
  apply Fin.ext
  match a with
  | ⟨0, _⟩ => show win4_0.index t 0 * 5000 + 1 * p.val = i.val; rw [e0, hi]; omega
  | ⟨1, _⟩ => show win4_0.index t 1 * 128 + 1 * q.val = q.val; rw [e1]; omega

/-- The weight window's block at any point is the whole weight table. -/
theorem iblk4_1_apply (c : Dev nD) (t : Fin cfg4.N) (a : Fin 128) (b : Fin 128) :
    (iblk4 (F := Ideal) V c 1 t : Vec Ideal S128x128 .f32) (ix2 a b)
      = (V c main_arg4 : S128x128.Idx → Elt Ideal .f32) (ix2 a b) := by
  obtain ⟨-, -, e2, e3, -⟩ := idx_facts4 t
  unfold iblk4
  rw [View.read_apply]
  show V c main_arg4 _ = V c main_arg4 _
  congr 1
  funext d
  apply Fin.ext
  match d with
  | ⟨0, _⟩ => show win4_1.index t 0 * 128 + 1 * a.val = a.val; rw [e2]; omega
  | ⟨1, _⟩ => show win4_1.index t 1 * 128 + 1 * b.val = b.val; rw [e3]; omega

/-- A TILE'S WRITE-BACK, over any tile and table: if the tile x0 holds rows 5000 t … 5000 t + 4999 of X and x1 holds
    W, then what point t writes back — the product of the tile with the table — is block t of the whole product X · W:
    row p of the block is row 5000 t + p of the product, which depends on row 5000 t + p of X only. -/
theorem tile_block4 (t : Fin cfg4.N) (x0 : Vec Ideal S5000x128 .f32) (x1 : Vec Ideal S128x128 .f32)
    (X : Cert.Spec.TFeat Ideal) (W : Cert.Spec.TMat Ideal)
    (hx0 : ∀ (p : Fin 5000) (q : Fin 128) (i : Fin 100000), i.val = 5000 * t.val + p.val → x0 (ix2 p q) = X (ix2 i q))
    (hx1 : ∀ (a b : Fin 128), x1 (ix2 a b) = W (ix2 a b)) :
    (cfg4.win 2).cut (grid4.coords t) (k4_pay1 (F := Ideal) x0 x1)
      = ((cfg4.win 2).blk t).view.read (Elt Ideal) (Cert.Spec.mm (F := Ideal) X W) := by
  obtain ⟨-, -, -, -, e4, e5⟩ := idx_facts4 t
  have hN : t.val < 20 := t.isLt
  funext j
  obtain ⟨p, q, rfl⟩ : ∃ (p : Fin 5000) (q : Fin 128), j = ix2 p q := ⟨j 0, j 1, eq_ix2 j⟩
  rw [View.read_apply]
  have hp : p.val < 5000 := p.isLt
  have hemb : ((cfg4.win 2).blk t).view.emb (ix2 p q) = ix2 (⟨5000 * t.val + p.val, by omega⟩ : Fin 100000) q := by
    funext a
    apply Fin.ext
    match a with
    | ⟨0, _⟩ => show win4_2.index t 0 * 5000 + 1 * p.val = 5000 * t.val + p.val; rw [e4]; omega
    | ⟨1, _⟩ => show win4_2.index t 1 * 128 + 1 * q.val = q.val; rw [e5]; omega
  rw [hemb]
  exact pay4_tile x0 x1 X W p q ⟨5000 * t.val + p.val, by omega⟩ (fun c => hx0 p c _ rfl) (fun c => hx1 c q)

/-- WHAT POINT t WRITES BACK is block t of the product of the feature array with the weight table, as the region
    finds them. -/
theorem flushed4_eq (c : Dev nD) (t : Fin cfg4.N) :
    (dat4 (F := Ideal) V c).flushed 2 t
      = ((cfg4.win 2).blk t).view.read (Elt Ideal) (Cert.Spec.mm (F := Ideal) (V c main_v100) (V c main_arg4)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  exact tile_block4 t _ _ _ _ (fun p q i hi => iblk4_0_apply V c t p q i hi) (fun a b => iblk4_1_apply V c t a b)

/-- An index of the output array is in point t's block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v101).slice (win4_2.rect t)).set ↔ _
  rw [View.set_slice_whole, Rect.mem_set_unit]
  exact Iff.rfl

/-- The 20 blocks of 5000 rows tile the 100000 rows: row r is in the block of point r / 5000. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨-, -, -, -, e4, e5⟩ := idx_facts4 t
  have ht : t.val = (i 0).val / 5000 := rfl
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; rw [e4, ht]; omega
  | ⟨1, _⟩ => show win4_2.index t (1 : Fin 2) * 128 ≤ (i 1).val ∧ (i 1).val < win4_2.index t (1 : Fin 2) * 128 + 128; rw [e5]; omega

/-- REGION 4: the output array ends holding the product of the feature array with the weight table. -/
theorem region4 (c : Dev nD) :
    (dat4 (F := Ideal) V c).arrAt 2 cfg4.N = Cert.Spec.mm (F := Ideal) (V c main_v100) (V c main_arg4) :=
  (dat4 (F := Ideal) V c).arrAt_eq_of_cover 2 (Cert.Spec.mm (F := Ideal) (V c main_v100) (V c main_arg4))
    (fun t _ => flushed4_eq V c t) cover4

end Region4

end Cert.KernelIdeal.Tile

end
-- ==== Proof.KernelRun.lean ====
/-
  The kernel's result is the network of its arguments.

  The last boundary's contents of the kernel's run are a fold through thirteen segments. Walking it forward: the first
  stretch leaves the edge sources, targets and coefficients; each launch leaves the dense product of the features it
  found with its weight matrix in its output array and touches nothing else a later segment reads; each later stretch
  aggregates that product into the next features and leaves sources, targets, coefficients, the second weight matrix and
  bias in place. After the fifth aggregation the result buffer holds five layers of the launched arguments.
-/
import proofs.«173828_j90881507983767_1_alg».proof.Proof.KernelNamed
import proofs.«173828_j90881507983767_1_alg».proof.Proof.KernelHost
import Idealize.ShloMosaic.PureOps.Ideal
import proofs.«173828_j90881507983767_1_alg».proof.Proof.Tile

noncomputable section

namespace Cert.KernelIdeal.Hand

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-! ## The features layer by layer -/

/-- The node features after the first layer, from the launch contents of the arguments. -/
abbrev lay1 : Cert.Spec.TFeat Ideal := Cert.Spec.layer (Cert.Spec.src (m ((c.tc : Thread nD τ).loc main_arg1))) (Cert.Spec.dst (m ((c.tc : Thread nD τ).loc main_arg1))) (Cert.Spec.nrm (m ((c.tc : Thread nD τ).loc main_arg1))) (m ((c.tc : Thread nD τ).loc main_arg0)) (m ((c.tc : Thread nD τ).loc main_arg2)) (m ((c.tc : Thread nD τ).loc main_arg3))
/-- After layer 2. -/
abbrev lay2 : Cert.Spec.TFeat Ideal := Cert.Spec.layer (Cert.Spec.src (m ((c.tc : Thread nD τ).loc main_arg1))) (Cert.Spec.dst (m ((c.tc : Thread nD τ).loc main_arg1))) (Cert.Spec.nrm (m ((c.tc : Thread nD τ).loc main_arg1))) (lay1 m c) (m ((c.tc : Thread nD τ).loc main_arg4)) (m ((c.tc : Thread nD τ).loc main_arg5))
/-- After layer 3. -/
abbrev lay3 : Cert.Spec.TFeat Ideal := Cert.Spec.layer (Cert.Spec.src (m ((c.tc : Thread nD τ).loc main_arg1))) (Cert.Spec.dst (m ((c.tc : Thread nD τ).loc main_arg1))) (Cert.Spec.nrm (m ((c.tc : Thread nD τ).loc main_arg1))) (lay2 m c) (m ((c.tc : Thread nD τ).loc main_arg4)) (m ((c.tc : Thread nD τ).loc main_arg5))
/-- After layer 4. -/
abbrev lay4 : Cert.Spec.TFeat Ideal := Cert.Spec.layer (Cert.Spec.src (m ((c.tc : Thread nD τ).loc main_arg1))) (Cert.Spec.dst (m ((c.tc : Thread nD τ).loc main_arg1))) (Cert.Spec.nrm (m ((c.tc : Thread nD τ).loc main_arg1))) (lay3 m c) (m ((c.tc : Thread nD τ).loc main_arg4)) (m ((c.tc : Thread nD τ).loc main_arg5))
/-- After layer 5. -/
abbrev lay5 : Cert.Spec.TFeat Ideal := Cert.Spec.layer (Cert.Spec.src (m ((c.tc : Thread nD τ).loc main_arg1))) (Cert.Spec.dst (m ((c.tc : Thread nD τ).loc main_arg1))) (Cert.Spec.nrm (m ((c.tc : Thread nD τ).loc main_arg1))) (lay4 m c) (m ((c.tc : Thread nD τ).loc main_arg4)) (m ((c.tc : Thread nD τ).loc main_arg5))

/-- Five layers are the network. -/
theorem lay5_eq : lay5 m c = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

/-- Equal pieces aggregate to equal arrays. -/
theorem agg_congr {s s' d d' : Cert.Spec.TIdx Ideal} {n n' : Cert.Spec.TCoef Ideal} {p p' : Cert.Spec.TFeat Ideal} {b b' : Cert.Spec.TBias Ideal}
    (hs : s = s') (hd : d = d') (hn : n = n') (hp : p = p') (hb : b = b') : Cert.Spec.agg s d n p b = Cert.Spec.agg s' d' n' p' b' := by
  rw [hs, hd, hn, hp, hb]

/-! ## What every later segment reads -/

/-- The buffers the later segments read hold, in the contents `Wv`: the edge sources, targets and coefficients of the
    launched edge table, and the launched second weight matrix and bias. -/
structure Carried (Wv : Valuation τ sig (Elt Ideal)) : Prop where
  s : Wv (Proc.devRef .tc main_v3) = Cert.Spec.src (m ((c.tc : Thread nD τ).loc main_arg1))
  d : Wv (Proc.devRef .tc main_v6) = Cert.Spec.dst (m ((c.tc : Thread nD τ).loc main_arg1))
  n : Wv (Proc.devRef .tc main_v32) = Cert.Spec.nrm (m ((c.tc : Thread nD τ).loc main_arg1))
  w : Wv (Proc.devRef .tc main_arg4) = (m ((c.tc : Thread nD τ).loc main_arg4))
  b : Wv (Proc.devRef .tc main_arg5) = (m ((c.tc : Thread nD τ).loc main_arg5))

/-! ## Launch 1 and its aggregation -/

/-- At the first launch: the first stretch has computed sources, targets and coefficients and written no argument. -/
theorem carried3 : Carried m c (W3 m ρ c) where
  s := pre_src (W0 m ρ c)
  d := pre_dst (W0 m ρ c)
  n := pre_nrm (W0 m ρ c)
  w := pre_main_arg4 (W0 m ρ c)
  b := pre_main_arg5 (W0 m ρ c)

theorem arg0_at3 : W3 m ρ c (Proc.devRef .tc main_arg0) = (m ((c.tc : Thread nD τ).loc main_arg0)) := pre_main_arg0 (W0 m ρ c)
theorem arg2_at3 : W3 m ρ c (Proc.devRef .tc main_arg2) = (m ((c.tc : Thread nD τ).loc main_arg2)) := pre_main_arg2 (W0 m ρ c)
theorem arg3_at3 : W3 m ρ c (Proc.devRef .tc main_arg3) = (m ((c.tc : Thread nD τ).loc main_arg3)) := pre_main_arg3 (W0 m ρ c)
/-- The first launch writes only its output array: the first bias is still as launched. -/
theorem arg3_at4 : W4 m ρ c (Proc.devRef .tc main_arg3) = (m ((c.tc : Thread nD τ).loc main_arg3)) :=
  (W4_of_ne m ρ c main_arg3 (by decide)).trans (arg3_at3 m ρ c)

/-- Launch 1 leaves the dense product of the features it found with the weight matrix in its output array. -/
theorem prod1_eq : W4 m ρ c (Proc.devRef .tc main_v33) = Cert.Spec.mm (m ((c.tc : Thread nD τ).loc main_arg0)) (m ((c.tc : Thread nD τ).loc main_arg2)) :=
  (W4_arr m ρ c 2).trans ((Cert.KernelIdeal.Tile.region0 (V3 m ρ) c).trans (congrArg₂ Cert.Spec.mm (arg0_at3 m ρ c) (arg2_at3 m ρ c)))

/-- Launch 1 writes only its output array. -/
theorem carried4 : Carried m c (W4 m ρ c) where
  s := (W4_of_ne m ρ c main_v3 (by decide)).trans (carried3 m ρ c).s
  d := (W4_of_ne m ρ c main_v6 (by decide)).trans (carried3 m ρ c).d
  n := (W4_of_ne m ρ c main_v32 (by decide)).trans (carried3 m ρ c).n
  w := (W4_of_ne m ρ c main_arg4 (by decide)).trans (carried3 m ρ c).w
  b := (W4_of_ne m ρ c main_arg5 (by decide)).trans (carried3 m ρ c).b

/-- The stretch after launch 1 aggregates the product: the features after layer 1. -/
theorem feat1_eq : W5 m ρ c (Proc.devRef .tc main_v49) = lay1 m c :=
  (agg1_out (W4 m ρ c)).trans (agg_congr (carried4 m ρ c).s (carried4 m ρ c).d (carried4 m ρ c).n (prod1_eq m ρ c) (arg3_at4 m ρ c))

/-- That stretch leaves what the later segments read. -/
theorem carried5 : Carried m c (W5 m ρ c) where
  s := (agg1_main_v3 (W4 m ρ c)).trans (carried4 m ρ c).s
  d := (agg1_main_v6 (W4 m ρ c)).trans (carried4 m ρ c).d
  n := (agg1_main_v32 (W4 m ρ c)).trans (carried4 m ρ c).n
  w := (agg1_main_arg4 (W4 m ρ c)).trans (carried4 m ρ c).w
  b := (agg1_main_arg5 (W4 m ρ c)).trans (carried4 m ρ c).b

/-! ## Launch 2 and its aggregation -/

/-- Launch 2 leaves the dense product of the features it found with the weight matrix in its output array. -/
theorem prod2_eq : W6 m ρ c (Proc.devRef .tc main_v50) = Cert.Spec.mm (lay1 m c) (m ((c.tc : Thread nD τ).loc main_arg4)) :=
  (W6_arr m ρ c 2).trans ((Cert.KernelIdeal.Tile.region1 (V5 m ρ) c).trans (congrArg₂ Cert.Spec.mm (feat1_eq m ρ c) (carried5 m ρ c).w))

/-- Launch 2 writes only its output array. -/
theorem carried6 : Carried m c (W6 m ρ c) where
  s := (W6_of_ne m ρ c main_v3 (by decide)).trans (carried5 m ρ c).s
  d := (W6_of_ne m ρ c main_v6 (by decide)).trans (carried5 m ρ c).d
  n := (W6_of_ne m ρ c main_v32 (by decide)).trans (carried5 m ρ c).n
  w := ((W6_arr m ρ c 1).trans (((dat1 (V5 m ρ) c).arrAt_in 1 rfl _).trans (A_eq1 (V5 m ρ) c 1))).trans (carried5 m ρ c).w
  b := (W6_of_ne m ρ c main_arg5 (by decide)).trans (carried5 m ρ c).b

/-- The stretch after launch 2 aggregates the product: the features after layer 2. -/
theorem feat2_eq : W7 m ρ c (Proc.devRef .tc main_v66) = lay2 m c :=
  (agg2_out (W6 m ρ c)).trans (agg_congr (carried6 m ρ c).s (carried6 m ρ c).d (carried6 m ρ c).n (prod2_eq m ρ c) (carried6 m ρ c).b)

/-- That stretch leaves what the later segments read. -/
theorem carried7 : Carried m c (W7 m ρ c) where
  s := (agg2_main_v3 (W6 m ρ c)).trans (carried6 m ρ c).s
  d := (agg2_main_v6 (W6 m ρ c)).trans (carried6 m ρ c).d
  n := (agg2_main_v32 (W6 m ρ c)).trans (carried6 m ρ c).n
  w := (agg2_main_arg4 (W6 m ρ c)).trans (carried6 m ρ c).w
  b := (agg2_main_arg5 (W6 m ρ c)).trans (carried6 m ρ c).b

/-! ## Launch 3 and its aggregation -/

/-- Launch 3 leaves the dense product of the features it found with the weight matrix in its output array. -/
theorem prod3_eq : W8 m ρ c (Proc.devRef .tc main_v67) = Cert.Spec.mm (lay2 m c) (m ((c.tc : Thread nD τ).loc main_arg4)) :=
  (W8_arr m ρ c 2).trans ((Cert.KernelIdeal.Tile.region2 (V7 m ρ) c).trans (congrArg₂ Cert.Spec.mm (feat2_eq m ρ c) (carried7 m ρ c).w))

/-- Launch 3 writes only its output array. -/
theorem carried8 : Carried m c (W8 m ρ c) where
  s := (W8_of_ne m ρ c main_v3 (by decide)).trans (carried7 m ρ c).s
  d := (W8_of_ne m ρ c main_v6 (by decide)).trans (carried7 m ρ c).d
  n := (W8_of_ne m ρ c main_v32 (by decide)).trans (carried7 m ρ c).n
  w := ((W8_arr m ρ c 1).trans (((dat2 (V7 m ρ) c).arrAt_in 1 rfl _).trans (A_eq2 (V7 m ρ) c 1))).trans (carried7 m ρ c).w
  b := (W8_of_ne m ρ c main_arg5 (by decide)).trans (carried7 m ρ c).b

/-- The stretch after launch 3 aggregates the product: the features after layer 3. -/
theorem feat3_eq : W9 m ρ c (Proc.devRef .tc main_v83) = lay3 m c :=
  (agg3_out (W8 m ρ c)).trans (agg_congr (carried8 m ρ c).s (carried8 m ρ c).d (carried8 m ρ c).n (prod3_eq m ρ c) (carried8 m ρ c).b)

/-- That stretch leaves what the later segments read. -/
theorem carried9 : Carried m c (W9 m ρ c) where
  s := (agg3_main_v3 (W8 m ρ c)).trans (carried8 m ρ c).s
  d := (agg3_main_v6 (W8 m ρ c)).trans (carried8 m ρ c).d
  n := (agg3_main_v32 (W8 m ρ c)).trans (carried8 m ρ c).n
  w := (agg3_main_arg4 (W8 m ρ c)).trans (carried8 m ρ c).w
  b := (agg3_main_arg5 (W8 m ρ c)).trans (carried8 m ρ c).b

/-! ## Launch 4 and its aggregation -/

/-- Launch 4 leaves the dense product of the features it found with the weight matrix in its output array. -/
theorem prod4_eq : W10 m ρ c (Proc.devRef .tc main_v84) = Cert.Spec.mm (lay3 m c) (m ((c.tc : Thread nD τ).loc main_arg4)) :=
  (W10_arr m ρ c 2).trans ((Cert.KernelIdeal.Tile.region3 (V9 m ρ) c).trans (congrArg₂ Cert.Spec.mm (feat3_eq m ρ c) (carried9 m ρ c).w))

/-- Launch 4 writes only its output array. -/
theorem carried10 : Carried m c (W10 m ρ c) where
  s := (W10_of_ne m ρ c main_v3 (by decide)).trans (carried9 m ρ c).s
  d := (W10_of_ne m ρ c main_v6 (by decide)).trans (carried9 m ρ c).d
  n := (W10_of_ne m ρ c main_v32 (by decide)).trans (carried9 m ρ c).n
  w := ((W10_arr m ρ c 1).trans (((dat3 (V9 m ρ) c).arrAt_in 1 rfl _).trans (A_eq3 (V9 m ρ) c 1))).trans (carried9 m ρ c).w
  b := (W10_of_ne m ρ c main_arg5 (by decide)).trans (carried9 m ρ c).b

/-- The stretch after launch 4 aggregates the product: the features after layer 4. -/
theorem feat4_eq : W11 m ρ c (Proc.devRef .tc main_v100) = lay4 m c :=
  (agg4_out (W10 m ρ c)).trans (agg_congr (carried10 m ρ c).s (carried10 m ρ c).d (carried10 m ρ c).n (prod4_eq m ρ c) (carried10 m ρ c).b)

/-- That stretch leaves what the later segments read. -/
theorem carried11 : Carried m c (W11 m ρ c) where
  s := (agg4_main_v3 (W10 m ρ c)).trans (carried10 m ρ c).s
  d := (agg4_main_v6 (W10 m ρ c)).trans (carried10 m ρ c).d
  n := (agg4_main_v32 (W10 m ρ c)).trans (carried10 m ρ c).n
  w := (agg4_main_arg4 (W10 m ρ c)).trans (carried10 m ρ c).w
  b := (agg4_main_arg5 (W10 m ρ c)).trans (carried10 m ρ c).b

/-! ## Launch 5 and its aggregation -/

/-- Launch 5 leaves the dense product of the features it found with the weight matrix in its output array. -/
theorem prod5_eq : W12 m ρ c (Proc.devRef .tc main_v101) = Cert.Spec.mm (lay4 m c) (m ((c.tc : Thread nD τ).loc main_arg4)) :=
  (W12_arr m ρ c 2).trans ((Cert.KernelIdeal.Tile.region4 (V11 m ρ) c).trans (congrArg₂ Cert.Spec.mm (feat4_eq m ρ c) (carried11 m ρ c).w))

/-- Launch 5 writes only its output array. -/
theorem carried12 : Carried m c (W12 m ρ c) where
  s := (W12_of_ne m ρ c main_v3 (by decide)).trans (carried11 m ρ c).s
  d := (W12_of_ne m ρ c main_v6 (by decide)).trans (carried11 m ρ c).d
  n := (W12_of_ne m ρ c main_v32 (by decide)).trans (carried11 m ρ c).n
  w := ((W12_arr m ρ c 1).trans (((dat4 (V11 m ρ) c).arrAt_in 1 rfl _).trans (A_eq4 (V11 m ρ) c 1))).trans (carried11 m ρ c).w
  b := (W12_of_ne m ρ c main_arg5 (by decide)).trans (carried11 m ρ c).b

/-- The stretch after launch 5 aggregates the product: the features after layer 5. -/
theorem feat5_eq : W13 m ρ c (Proc.devRef .tc main_v117) = lay5 m c :=
  (agg5_out (W12 m ρ c)).trans (agg_congr (carried12 m ρ c).s (carried12 m ρ c).d (carried12 m ρ c).n (prod5_eq m ρ c) (carried12 m ρ c).b)

/-! ## The run -/

/-- Every weakly fair execution of the kernel's @main terminates, nothing faulting, with the result array at the network
    of the launched arguments and the arguments as launched. -/
theorem run : θ_run defs (onTc (τ := τ) (main (F := Ideal))) ⟨m, fun _ => 0, ρ⟩ (fun r => ∀ c : Dev nD,
      r.2.mem ((c.tc : Thread nD τ).loc main_v117) = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1.trans (feat5_eq m ρ c)).trans (lay5_eq m c), (h c).2⟩) (run_named m ρ)

end Cert.KernelIdeal.Hand

end
-- ==== Proof.RefRun.lean ====
/-
  The reference program's run, read back as one function of its arguments.

  The program is a straight line of 144 host operations, in six stretches. From any contents `W` of the buffers:
  the first stretch leaves in `main_v3`, `main_v6`, `main_v32` the edge sources, targets and coefficients of the
  edge table held in `main_arg1` (`Spec.src`, `Spec.dst`, `Spec.nrm`); each of the five later stretches leaves in
  its result buffer one layer (`Spec.layer`) of the features it reads, over the sources, targets and coefficients it
  finds in those three buffers, and keeps them; every stretch keeps the six arguments. Run one after the other they
  leave in `main_v117` the five-layer network `Spec.net` of the six arguments, the arguments unchanged; and every
  weakly fair execution of the program terminates in such a state.
-/
import proofs.«173828_j90881507983767_1_alg».proof.Proof.Spec
import proofs.«173828_j90881507983767_1_alg».proof.Proof.RefOps
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## One stretch at a time, from any contents -/

section Stretches

variable (W : Valuation τ sig (Elt F))

/-! ### The graph: sources, targets, coefficients -/

/-- The first stretch leaves the edge sources in `main_v3`: row 0 of the edge table, then the loop edges. -/
theorem g_src : after ops0 W (Proc.devRef .tc main_v3) = Cert.Spec.src (W (Proc.devRef .tc main_arg1)) := by
  after_results_simp
  rfl

/-- It leaves the edge targets in `main_v6`: row 1 of the edge table, then the loop edges. -/
theorem g_dst : after ops0 W (Proc.devRef .tc main_v6) = Cert.Spec.dst (W (Proc.devRef .tc main_arg1)) := by
  after_results_simp
  rfl

/-- It leaves the edge coefficients in `main_v32`: the inverse square root of the degree at the source, times the
    edge's weight, times the same at the target. -/
theorem g_nrm : after ops0 W (Proc.devRef .tc main_v32) = Cert.Spec.nrm (W (Proc.devRef .tc main_arg1)) := by
  after_results_simp
  rfl

theorem g_arg0 : after ops0 W (Proc.devRef .tc main_arg0) = W (Proc.devRef .tc main_arg0) := by after_results_simp
theorem g_arg1 : after ops0 W (Proc.devRef .tc main_arg1) = W (Proc.devRef .tc main_arg1) := by after_results_simp
theorem g_arg2 : after ops0 W (Proc.devRef .tc main_arg2) = W (Proc.devRef .tc main_arg2) := by after_results_simp
theorem g_arg3 : after ops0 W (Proc.devRef .tc main_arg3) = W (Proc.devRef .tc main_arg3) := by after_results_simp
theorem g_arg4 : after ops0 W (Proc.devRef .tc main_arg4) = W (Proc.devRef .tc main_arg4) := by after_results_simp
theorem g_arg5 : after ops0 W (Proc.devRef .tc main_arg5) = W (Proc.devRef .tc main_arg5) := by after_results_simp

/-! ### The first layer -/

/-- The stretch leaves in `main_v49` one layer of the features in `main_arg0`: their product with the weight
    matrix in `main_arg2`, gathered at the sources, scaled by the coefficients, summed at the targets, plus the
    bias row in `main_arg3`. -/
theorem l1_out : after ops1 W (Proc.devRef .tc main_v49)
    = Cert.Spec.layer (W (Proc.devRef .tc main_v3)) (W (Proc.devRef .tc main_v6)) (W (Proc.devRef .tc main_v32))
        (W (Proc.devRef .tc main_arg0)) (W (Proc.devRef .tc main_arg2)) (W (Proc.devRef .tc main_arg3)) := by
  after_results_simp
  rfl

theorem l1_v3 : after ops1 W (Proc.devRef .tc main_v3) = W (Proc.devRef .tc main_v3) := by after_results_simp
theorem l1_v6 : after ops1 W (Proc.devRef .tc main_v6) = W (Proc.devRef .tc main_v6) := by after_results_simp
theorem l1_v32 : after ops1 W (Proc.devRef .tc main_v32) = W (Proc.devRef .tc main_v32) := by after_results_simp
theorem l1_arg0 : after ops1 W (Proc.devRef .tc main_arg0) = W (Proc.devRef .tc main_arg0) := by after_results_simp
theorem l1_arg1 : after ops1 W (Proc.devRef .tc main_arg1) = W (Proc.devRef .tc main_arg1) := by after_results_simp
theorem l1_arg2 : after ops1 W (Proc.devRef .tc main_arg2) = W (Proc.devRef .tc main_arg2) := by after_results_simp
theorem l1_arg3 : after ops1 W (Proc.devRef .tc main_arg3) = W (Proc.devRef .tc main_arg3) := by after_results_simp
theorem l1_arg4 : after ops1 W (Proc.devRef .tc main_arg4) = W (Proc.devRef .tc main_arg4) := by after_results_simp
theorem l1_arg5 : after ops1 W (Proc.devRef .tc main_arg5) = W (Proc.devRef .tc main_arg5) := by after_results_simp

/-! ### The second layer -/

/-- The stretch leaves in `main_v66` one layer of the features in `main_v49`: their product with the weight
    matrix in `main_arg4`, gathered at the sources, scaled by the coefficients, summed at the targets, plus the
    bias row in `main_arg5`. -/
theorem l2_out : after ops2 W (Proc.devRef .tc main_v66)
    = Cert.Spec.layer (W (Proc.devRef .tc main_v3)) (W (Proc.devRef .tc main_v6)) (W (Proc.devRef .tc main_v32))
        (W (Proc.devRef .tc main_v49)) (W (Proc.devRef .tc main_arg4)) (W (Proc.devRef .tc main_arg5)) := by
  after_results_simp
  rfl

theorem l2_v3 : after ops2 W (Proc.devRef .tc main_v3) = W (Proc.devRef .tc main_v3) := by after_results_simp
theorem l2_v6 : after ops2 W (Proc.devRef .tc main_v6) = W (Proc.devRef .tc main_v6) := by after_results_simp
theorem l2_v32 : after ops2 W (Proc.devRef .tc main_v32) = W (Proc.devRef .tc main_v32) := by after_results_simp
theorem l2_arg0 : after ops2 W (Proc.devRef .tc main_arg0) = W (Proc.devRef .tc main_arg0) := by after_results_simp
theorem l2_arg1 : after ops2 W (Proc.devRef .tc main_arg1) = W (Proc.devRef .tc main_arg1) := by after_results_simp
theorem l2_arg2 : after ops2 W (Proc.devRef .tc main_arg2) = W (Proc.devRef .tc main_arg2) := by after_results_simp
theorem l2_arg3 : after ops2 W (Proc.devRef .tc main_arg3) = W (Proc.devRef .tc main_arg3) := by after_results_simp
theorem l2_arg4 : after ops2 W (Proc.devRef .tc main_arg4) = W (Proc.devRef .tc main_arg4) := by after_results_simp
theorem l2_arg5 : after ops2 W (Proc.devRef .tc main_arg5) = W (Proc.devRef .tc main_arg5) := by after_results_simp

/-! ### The third layer -/

/-- The stretch leaves in `main_v83` one layer of the features in `main_v66`: their product with the weight
    matrix in `main_arg4`, gathered at the sources, scaled by the coefficients, summed at the targets, plus the
    bias row in `main_arg5`. -/
theorem l3_out : after ops3 W (Proc.devRef .tc main_v83)
    = Cert.Spec.layer (W (Proc.devRef .tc main_v3)) (W (Proc.devRef .tc main_v6)) (W (Proc.devRef .tc main_v32))
        (W (Proc.devRef .tc main_v66)) (W (Proc.devRef .tc main_arg4)) (W (Proc.devRef .tc main_arg5)) := by
  after_results_simp
  rfl

theorem l3_v3 : after ops3 W (Proc.devRef .tc main_v3) = W (Proc.devRef .tc main_v3) := by after_results_simp
theorem l3_v6 : after ops3 W (Proc.devRef .tc main_v6) = W (Proc.devRef .tc main_v6) := by after_results_simp
theorem l3_v32 : after ops3 W (Proc.devRef .tc main_v32) = W (Proc.devRef .tc main_v32) := by after_results_simp
theorem l3_arg0 : after ops3 W (Proc.devRef .tc main_arg0) = W (Proc.devRef .tc main_arg0) := by after_results_simp
theorem l3_arg1 : after ops3 W (Proc.devRef .tc main_arg1) = W (Proc.devRef .tc main_arg1) := by after_results_simp
theorem l3_arg2 : after ops3 W (Proc.devRef .tc main_arg2) = W (Proc.devRef .tc main_arg2) := by after_results_simp
theorem l3_arg3 : after ops3 W (Proc.devRef .tc main_arg3) = W (Proc.devRef .tc main_arg3) := by after_results_simp
theorem l3_arg4 : after ops3 W (Proc.devRef .tc main_arg4) = W (Proc.devRef .tc main_arg4) := by after_results_simp
theorem l3_arg5 : after ops3 W (Proc.devRef .tc main_arg5) = W (Proc.devRef .tc main_arg5) := by after_results_simp

/-! ### The fourth layer -/

/-- The stretch leaves in `main_v100` one layer of the features in `main_v83`: their product with the weight
    matrix in `main_arg4`, gathered at the sources, scaled by the coefficients, summed at the targets, plus the
    bias row in `main_arg5`. -/
theorem l4_out : after ops4 W (Proc.devRef .tc main_v100)
    = Cert.Spec.layer (W (Proc.devRef .tc main_v3)) (W (Proc.devRef .tc main_v6)) (W (Proc.devRef .tc main_v32))
        (W (Proc.devRef .tc main_v83)) (W (Proc.devRef .tc main_arg4)) (W (Proc.devRef .tc main_arg5)) := by
  after_results_simp
  rfl

theorem l4_v3 : after ops4 W (Proc.devRef .tc main_v3) = W (Proc.devRef .tc main_v3) := by after_results_simp
theorem l4_v6 : after ops4 W (Proc.devRef .tc main_v6) = W (Proc.devRef .tc main_v6) := by after_results_simp
theorem l4_v32 : after ops4 W (Proc.devRef .tc main_v32) = W (Proc.devRef .tc main_v32) := by after_results_simp
theorem l4_arg0 : after ops4 W (Proc.devRef .tc main_arg0) = W (Proc.devRef .tc main_arg0) := by after_results_simp
theorem l4_arg1 : after ops4 W (Proc.devRef .tc main_arg1) = W (Proc.devRef .tc main_arg1) := by after_results_simp
theorem l4_arg2 : after ops4 W (Proc.devRef .tc main_arg2) = W (Proc.devRef .tc main_arg2) := by after_results_simp
theorem l4_arg3 : after ops4 W (Proc.devRef .tc main_arg3) = W (Proc.devRef .tc main_arg3) := by after_results_simp
theorem l4_arg4 : after ops4 W (Proc.devRef .tc main_arg4) = W (Proc.devRef .tc main_arg4) := by after_results_simp
theorem l4_arg5 : after ops4 W (Proc.devRef .tc main_arg5) = W (Proc.devRef .tc main_arg5) := by after_results_simp

/-! ### The fifth layer -/

/-- The stretch leaves in `main_v117` one layer of the features in `main_v100`: their product with the weight
    matrix in `main_arg4`, gathered at the sources, scaled by the coefficients, summed at the targets, plus the
    bias row in `main_arg5`. -/
theorem l5_out : after ops5 W (Proc.devRef .tc main_v117)
    = Cert.Spec.layer (W (Proc.devRef .tc main_v3)) (W (Proc.devRef .tc main_v6)) (W (Proc.devRef .tc main_v32))
        (W (Proc.devRef .tc main_v100)) (W (Proc.devRef .tc main_arg4)) (W (Proc.devRef .tc main_arg5)) := by
  after_results_simp
  rfl

theorem l5_arg0 : after ops5 W (Proc.devRef .tc main_arg0) = W (Proc.devRef .tc main_arg0) := by after_results_simp
theorem l5_arg1 : after ops5 W (Proc.devRef .tc main_arg1) = W (Proc.devRef .tc main_arg1) := by after_results_simp
theorem l5_arg2 : after ops5 W (Proc.devRef .tc main_arg2) = W (Proc.devRef .tc main_arg2) := by after_results_simp
theorem l5_arg3 : after ops5 W (Proc.devRef .tc main_arg3) = W (Proc.devRef .tc main_arg3) := by after_results_simp
theorem l5_arg4 : after ops5 W (Proc.devRef .tc main_arg4) = W (Proc.devRef .tc main_arg4) := by after_results_simp
theorem l5_arg5 : after ops5 W (Proc.devRef .tc main_arg5) = W (Proc.devRef .tc main_arg5) := by after_results_simp

end Stretches

/-! ## The whole line -/

section Whole

variable (V : Valuation τ sig (Elt F))

/-- The six stretches run in order leave the five-layer network of the six arguments in `main_v117`: the
    sources, targets and coefficients of the first stretch reach every layer unchanged, each layer reads the one
    before it, the first reads the input features. -/
theorem out_eq : after ops V (Proc.devRef .tc main_v117)
    = Cert.Spec.net (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  show after (ops0 ++ (ops1 ++ (ops2 ++ (ops3 ++ (ops4 ++ ops5))))) V _ = _
  rw [after_append, after_append, after_append, after_append, after_append]
  rw [l5_out]
  rw [l4_v3, l4_v6, l4_v32, l4_out, l4_arg4, l4_arg5]
  rw [l3_v3, l3_v6, l3_v32, l3_out, l3_arg4, l3_arg5]
  rw [l2_v3, l2_v6, l2_v32, l2_out, l2_arg4, l2_arg5]
  rw [l1_v3, l1_v6, l1_v32, l1_out, l1_arg4, l1_arg5]
  rw [g_src, g_dst, g_nrm, g_arg0, g_arg2, g_arg3, g_arg4, g_arg5]
  rfl

/-- No stretch writes `main_arg0`. -/
theorem keep_arg0 : after ops V (Proc.devRef .tc main_arg0) = V (Proc.devRef .tc main_arg0) := by
  show after (ops0 ++ (ops1 ++ (ops2 ++ (ops3 ++ (ops4 ++ ops5))))) V _ = _
  rw [after_append, after_append, after_append, after_append, after_append,
    l5_arg0, l4_arg0, l3_arg0, l2_arg0, l1_arg0, g_arg0]

/-- No stretch writes `main_arg1`. -/
theorem keep_arg1 : after ops V (Proc.devRef .tc main_arg1) = V (Proc.devRef .tc main_arg1) := by
  show after (ops0 ++ (ops1 ++ (ops2 ++ (ops3 ++ (ops4 ++ ops5))))) V _ = _
  rw [after_append, after_append, after_append, after_append, after_append,
    l5_arg1, l4_arg1, l3_arg1, l2_arg1, l1_arg1, g_arg1]

/-- No stretch writes `main_arg2`. -/
theorem keep_arg2 : after ops V (Proc.devRef .tc main_arg2) = V (Proc.devRef .tc main_arg2) := by
  show after (ops0 ++ (ops1 ++ (ops2 ++ (ops3 ++ (ops4 ++ ops5))))) V _ = _
  rw [after_append, after_append, after_append, after_append, after_append,
    l5_arg2, l4_arg2, l3_arg2, l2_arg2, l1_arg2, g_arg2]

/-- No stretch writes `main_arg3`. -/
theorem keep_arg3 : after ops V (Proc.devRef .tc main_arg3) = V (Proc.devRef .tc main_arg3) := by
  show after (ops0 ++ (ops1 ++ (ops2 ++ (ops3 ++ (ops4 ++ ops5))))) V _ = _
  rw [after_append, after_append, after_append, after_append, after_append,
    l5_arg3, l4_arg3, l3_arg3, l2_arg3, l1_arg3, g_arg3]

/-- No stretch writes `main_arg4`. -/
theorem keep_arg4 : after ops V (Proc.devRef .tc main_arg4) = V (Proc.devRef .tc main_arg4) := by
  show after (ops0 ++ (ops1 ++ (ops2 ++ (ops3 ++ (ops4 ++ ops5))))) V _ = _
  rw [after_append, after_append, after_append, after_append, after_append,
    l5_arg4, l4_arg4, l3_arg4, l2_arg4, l1_arg4, g_arg4]

/-- No stretch writes `main_arg5`. -/
theorem keep_arg5 : after ops V (Proc.devRef .tc main_arg5) = V (Proc.devRef .tc main_arg5) := by
  show after (ops0 ++ (ops1 ++ (ops2 ++ (ops3 ++ (ops4 ++ ops5))))) V _ = _
  rw [after_append, after_append, after_append, after_append, after_append,
    l5_arg5, l4_arg5, l3_arg5, l2_arg5, l1_arg5, g_arg5]

end Whole

/-! ## The run -/

/-- On every device, for any float values, from any memory with zero counters: every weakly fair execution of
    @main terminates with the result buffer at the five-layer network of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v117) = Cert.Spec.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v117).trans (out_eq (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c))⟩)
    (run_seq scopedRefs_eq scopedSems_eq defs main (fun _ => ops) main_eq (fun _ => ops_sub) m ρ (fun _ => ops_fresh))

end Cert.ReferenceIdeal.Hand

end
-- ==== Proof.lean ====
/-
  The certificate of the five-layer graph convolution: the kernel against its reference, at the extended reals.

  Both programs compute, over one graph of 100000 nodes and 1700000 weighted edges, five times: features times a weight
  matrix, gathered at the edge sources, scaled by the edge coefficients, summed at the edge targets, plus a bias. They
  differ in one place only: the reference takes the dense product in one host operation, the kernel in a launch that
  walks the 100000 rows in twenty tiles of 5000, casting tile and matrix to a shorter float format before multiplying
  into a zero accumulator. At the extended reals the cast is the identity and a tile's product is, row by row, the
  whole product, so each launch leaves the reference's product in its output array; the host operations around the
  launches are the reference's own, and the two results are the same function `Spec.net` of the arguments. No finiteness
  is needed: the two sides are the same sums of the same products.
  The frames of the two kernel programs are the generated ones; the reference's frame is its run with the result
  forgotten; the idealization rewrote nothing.
-/
import proofs.«173828_j90881507983767_1_alg».proof.Defs
import proofs.«173828_j90881507983767_1_alg».proof.Proof.Gen.Kernel
import proofs.«173828_j90881507983767_1_alg».proof.Proof.Gen.Kernel.Frame
import proofs.«173828_j90881507983767_1_alg».proof.Proof.Gen.KernelIdeal
import proofs.«173828_j90881507983767_1_alg».proof.Proof.Gen.KernelIdeal.Frame
import proofs.«173828_j90881507983767_1_alg».proof.Proof.Gen.ReferenceIdeal
import proofs.«173828_j90881507983767_1_alg».proof.Proof.Gen.Pre_finite_inputs
import proofs.«173828_j90881507983767_1_alg».proof.Proof.KernelRun
import proofs.«173828_j90881507983767_1_alg».proof.Proof.RefRun
import Idealize.ShloMosaic.Adequacy
import Idealize.ShloMosaic.Init

noncomputable section

namespace Cert.Proof

open Idealize.ShloMosaic Idealize.SL.Sem

/-- The word-level kernel terminates without a fault and leaves its arguments as launched: the generated frame. -/
theorem frame_kernel : Cert.frame_Kernel := fun m ρ _ => Cert.Kernel.Gen.frame m ρ

/-- The same for the kernel read at the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealization rewrote no operation of the kernel. -/
theorem preserves : Cert.preserves_Kernel_KernelIdeal := trivial

/-- At the extended reals both programs end with the five-layer network of the arguments in their result array: the
    kernel because each launch's row tiles make up the dense product the reference takes in one operation (a tile's
    product into zero is, row by row, the whole product, the cast to a shorter float format being the identity), the host
    operations around the launches being the reference's own. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
